-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x8192x128 : Shape := ⟨3, ![32, 8192, 128]⟩
abbrev S_ : Shape := ⟨0, ![]⟩

class Facts : Prop where
  bcast_S_S32x8192x128 : S_.BroadcastsInDim S32x8192x128 (![] : Fin 0 → Fin S32x8192x128.rank)
  reducesTo_S32x8192x128_S_d0_1_2 : S32x8192x128.ReducesTo [0, 1, 2] S_
  h_S_ : 0 < S_.numel

variable [Facts]

def fn {F : FTy → Type} [FloatOps F] (main_arg0 : FVec F S32x8192x128 .f32) : IVec S_ 1 :=
  let main_v0 : FVec F S32x8192x128 .f32 := Host.absf main_arg0
  let main_cst : FVec F S_ .f32 := constant S_ .f32 0x7F800000#32
  let main_v1 : FVec F S32x8192x128 .f32 := broadcastInDim S32x8192x128 ![] bcast_S_S32x8192x128 main_cst
  let main_v2 : IVec S32x8192x128 1 := cmpf .olt main_v0 main_v1
  let main_c : IVec S_ 1 := constantI S_ 1 1#1
  let main_v3 : IVec S_ 1 := (fun x v => Host.reduce IntOp.andi x v reducesTo_S32x8192x128_S_d0_1_2 h_S_) main_v2 main_c
  main_v3
-- ==== Kernel.lean ====
abbrev S32x8192x128 : Shape := ⟨3, ![32, 8192, 128]⟩
abbrev S32x128x128 : Shape := ⟨3, ![32, 128, 128]⟩
abbrev S1x8192x128 : Shape := ⟨3, ![1, 8192, 128]⟩
abbrev S1x128x128 : Shape := ⟨3, ![1, 128, 128]⟩
abbrev S8192x128 : Shape := ⟨2, ![8192, 128]⟩
abbrev S128 : Shape := ⟨1, ![128]⟩
abbrev S1x128 : Shape := ⟨2, ![1, 128]⟩
abbrev S128x128 : Shape := ⟨2, ![128, 128]⟩

abbrev nBuf : Space → Nat
  | .hbm => 2
  | .vmem => 4
  | .smem => 0
  | _ => 0

abbrev bufTy : (tb : Table) → Fin (tcTables nBuf tb) → BufTy
  | .hbm, ⟨0, _⟩ => ⟨S32x8192x128, .f32⟩
  | .hbm, ⟨1, _⟩ => ⟨S32x128x128, .f32⟩
  | .local _ .vmem, ⟨0, _⟩ => ⟨S1x8192x128, .f32⟩
  | .local _ .vmem, ⟨1, _⟩ => ⟨S1x8192x128, .f32⟩
  | .local _ .vmem, ⟨2, _⟩ => ⟨S1x128x128, .f32⟩
  | .local _ .vmem, ⟨3, _⟩ => ⟨S1x128x128, .f32⟩
  | _, _ => ⟨S32x8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S1x8192x128_S1x8192x128_0_0_0 : ∀ a, (![0, 0, 0] : Fin 3 → Nat) a + S1x8192x128.size a ≤ S1x8192x128.size a
  h_S1x8192x128 : 0 < S1x8192x128.numel
  shapeCasts_S1x8192x128_S8192x128 : S1x8192x128.ShapeCasts S8192x128
  reduces_S8192x128_S128 : S8192x128.Reduces [0] S128
  shapeCasts_S128_S1x128 : S128.ShapeCasts S1x128
  bitsLt_bf16_f32 : FTy.bits .bf16 < FTy.bits .f32
  inb_S1x128x128_S1x128x128_0_0_0 : ∀ a, (![0, 0, 0] : Fin 3 → Nat) a + S1x128x128.size a ≤ S1x128x128.size a
  h_S1x128x128 : 0 < S1x128x128.numel
  shapeCasts_S1x128x128_S128x128 : S1x128x128.ShapeCasts S128x128
  shapeCasts_S128x128_S1x128x128 : S128x128.ShapeCasts S1x128x128
  dot_S8192x128_S8192x128_S128x128_0_0_1_1_n_n_wf : DotDims.WF S8192x128 S8192x128 S128x128 [0] [0] [1] [1] [] []
  dot_S1x128_S1x128_S128x128_0_0_1_1_n_n_wf : DotDims.WF S1x128 S1x128 S128x128 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8192x128.size a ≤ S32x8192x128.size a
  hwx0_0 : ∀ i : grid0.Coords, EltTy.bits .f32 = 32 ∨ (Rect.block (s := S32x8192x128) S1x8192x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x128.size a ≤ S32x128x128.size a
  hwx0_1 : ∀ i : grid0.Coords, EltTy.bits .f32 = 32 ∨ (Rect.block (s := S32x128x128) S1x128x128.size (cc0_transform_1 i) (hinb0_1 i)).WholeWords (EltTy.packing .f32)

variable [Facts₀]

def dot_S8192x128_S8192x128_S128x128_0_0_1_1_n_n : DotDims S8192x128 S8192x128 S128x128 where
  lhsContracting := [0]
  rhsContracting := [0]
  lhsNonContracting := [1]
  rhsNonContracting := [1]
  lhsBatch := []
  rhsBatch := []
  wf := dot_S8192x128_S8192x128_S128x128_0_0_1_1_n_n_wf
def dot_S1x128_S1x128_S128x128_0_0_1_1_n_n : DotDims S1x128 S1x128 S128x128 where
  lhsContracting := [0]
  rhsContracting := [0]
  lhsNonContracting := [1]
  rhsNonContracting := [1]
  lhsBatch := []
  rhsBatch := []
  wf := dot_S1x128_S1x128_S128x128_0_0_1_1_n_n_wf

abbrev win0_0 : Pipeline.Window sig grid0 :=
  Pipeline.Window.ofSpec (Memref.whole main_arg0) S1x8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x128x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S32x8192x128 : Shape := ⟨3, ![32, 8192, 128]⟩
abbrev S_ : Shape := ⟨0, ![]⟩
abbrev S32x128 : Shape := ⟨2, ![32, 128]⟩
abbrev S32x1x128 : Shape := ⟨3, ![32, 1, 128]⟩
abbrev S32x128x128 : Shape := ⟨3, ![32, 128, 128]⟩

abbrev nBuf : Space → Nat
  | .hbm => 13
  | .vmem => 0
  | .smem => 0
  | _ => 0

abbrev bufTy : (tb : Table) → Fin (tcTables nBuf tb) → BufTy
  | .hbm, ⟨0, _⟩ => ⟨S32x8192x128, .f32⟩
  | .hbm, ⟨1, _⟩ => ⟨S_, .f32⟩
  | .hbm, ⟨2, _⟩ => ⟨S32x128, .f32⟩
  | .hbm, ⟨3, _⟩ => ⟨S32x1x128, .f32⟩
  | .hbm, ⟨4, _⟩ => ⟨S_, .f32⟩
  | .hbm, ⟨5, _⟩ => ⟨S32x1x128, .f32⟩
  | .hbm, ⟨6, _⟩ => ⟨S32x1x128, .f32⟩
  | .hbm, ⟨7, _⟩ => ⟨S32x8192x128, .f32⟩
  | .hbm, ⟨8, _⟩ => ⟨S32x8192x128, .f32⟩
  | .hbm, ⟨9, _⟩ => ⟨S32x128x128, .f32⟩
  | .hbm, ⟨10, _⟩ => ⟨S_, .f32⟩
  | .hbm, ⟨11, _⟩ => ⟨S32x128x128, .f32⟩
  | .hbm, ⟨12, _⟩ => ⟨S32x128x128, .f32⟩
  | _, _ => ⟨S32x8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_1 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]

class Facts₀ : Prop where
  reducesTo_S32x8192x128_S32x128_d1 : S32x8192x128.ReducesTo [1] S32x128
  h_S_ : 0 < S_.numel
  bcast_S32x128_S32x1x128_0_2 : S32x128.BroadcastsInDim S32x1x128 (![0, 2] : Fin 2 → Fin S32x1x128.rank)
  bcast_S_S32x1x128 : S_.BroadcastsInDim S32x1x128 (![] : Fin 0 → Fin S32x1x128.rank)
  bcast_S32x1x128_S32x8192x128_0_1_2 : S32x1x128.BroadcastsInDim S32x8192x128 (![0, 1, 2] : Fin 3 → Fin S32x8192x128.rank)
  bcast_S_S32x128x128 : S_.BroadcastsInDim S32x128x128 (![] : Fin 0 → Fin S32x128x128.rank)
  dot_S32x8192x128_S32x8192x128_S32x128x128_1_1_2_2_0_0_wf : DotDims.WF S32x8192x128 S32x8192x128 S32x128x128 [1] [1] [2] [2] [0] [0]

variable [Facts₀]

def dot_S32x8192x128_S32x8192x128_S32x128x128_1_1_2_2_0_0 : DotDims S32x8192x128 S32x8192x128 S32x128x128 where
  lhsContracting := [1]
  rhsContracting := [1]
  lhsNonContracting := [2]
  rhsNonContracting := [2]
  lhsBatch := [0]
  rhsBatch := [0]
  wf := dot_S32x8192x128_S32x8192x128_S32x128x128_1_1_2_2_0_0_wf

class Facts : Prop extends Facts₀ where

variable [Facts]
-- ==== Proof.CovBody.lean ====
/-
  One batch of the kernel: what the body computes from its loaded [1, 8192, 128] block, entry by entry.

  With x the block (rows n, columns d) the body forms the column sums s d = ∑ n, x n d, the column means
  s d / 8192, the Gram matrix ∑ n, x n d · x n e (a product contracting the ROW axis of both operands; the
  rounding of the operands to a shorter format is the identity on exact values), the outer product of the mean
  row with itself (a product contracting an axis of extent one), and stores Gram / 8192 − outer.
-/
import proofs.«151399_j40492951667323_2_alg».proof.Proof.Gen.KernelIdeal.Skeleton
import Idealize.ShloMosaic.Lib.ValueIdx
import Idealize.ShloMosaic.Lib.ValueLayout
import Idealize.ShloMosaic.PureOps.Ideal.Laws

noncomputable section

namespace Cert.KernelIdeal.Body

open Cert.KernelIdeal Cert.KernelIdeal.Gen Idealize.ShloMosaic Idealize.ShloMosaic.ValueIdx

/-- The column sum: a sum-reduction of an [8192, 128] block over its row axis, read at column d, is the sum over the
    rows of the entries of that column. -/
theorem colsum_apply (y : FVec Ideal S8192x128 .f32) (h : S8192x128.Reduces [0] S128)
    (hacc : (0x00000000#32 : BitVec 32) = 0x00000000#32) (d : Fin 128) :
    multiReduction .add [0] S128 y 0x00000000#32 h (.inl rfl) hacc (ix1 d) = ∑ n : Fin 8192, y (ix2 n d) := by
  refine (Ideal.multiReduction_add_single y 0x00000000#32 h (.inl rfl) hacc (ix1 d)).trans ?_
  refine Finset.sum_congr rfl fun n _ => congrArg y ?_
  funext a
  apply Fin.ext
  match a with
  | ⟨0, _⟩ => rfl
  | ⟨1, _⟩ => rfl

/-- The dimension numbers of the Gram product: both operands [8192, 128], the row axis contracted. -/
abbrev DG : DotDims S8192x128 S8192x128 S128x128 := dot_S8192x128_S8192x128_S128x128_0_0_1_1_n_n
/-- The dimension numbers of the outer product: both operands [1, 128], the unit axis contracted. -/
abbrev DO : DotDims S1x128 S1x128 S128x128 := dot_S1x128_S1x128_S128x128_0_0_1_1_n_n

/-- On the kept (column) axis the left operand's index of the Gram product is the output's first coordinate, -/
theorem gram_lhs_col (j : S128x128.Idx) (q : DG.contr.Idx) : (DG.lhsIdx j q 1).val = (j 0).val := by
  unfold DotDims.lhsIdx
  rw [dif_neg (show ¬(1 : Fin S8192x128.rank) ∈ DG.lhsBatch by decide),
    dif_pos (show (1 : Fin S8192x128.rank) ∈ DG.lhsNonContracting by decide)]
  rfl

/-- and the right operand's the output's second coordinate. -/
theorem gram_rhs_col (j : S128x128.Idx) (q : DG.contr.Idx) : (DG.rhsIdx j q 1).val = (j 1).val := by
  unfold DotDims.rhsIdx
  rw [dif_neg (show ¬(1 : Fin S8192x128.rank) ∈ DG.rhsBatch by decide),
    dif_pos (show (1 : Fin S8192x128.rank) ∈ DG.rhsNonContracting by decide)]
  rfl

/-- The left operand's index of the Gram product at output (d, e) and row n is (n, d). -/
theorem gram_lhs (d e : Fin 128) (n : Fin 8192) :
    DG.lhsIdx (ix2 d e) ((contrEquiv1 DG 8192 rfl rfl).symm n) = ix2 n d := by
  have hn := contrEquiv1_symm_val DG 8192 rfl rfl n
  funext a
  apply Fin.ext
  match a with
  | ⟨0, _⟩ => exact (DG.lhsIdx_val_of_single rfl (ix2 d e) _).trans hn
  | ⟨1, _⟩ => exact gram_lhs_col _ _

/-- The right operand's index of the Gram product at output (d, e) and row n is (n, e). -/
theorem gram_rhs (d e : Fin 128) (n : Fin 8192) :
    DG.rhsIdx (ix2 d e) ((contrEquiv1 DG 8192 rfl rfl).symm n) = ix2 n e := by
  have hn := contrEquiv1_symm_val DG 8192 rfl rfl n
  funext a
  apply Fin.ext
  match a with
  | ⟨0, _⟩ => exact (DG.rhsIdx_val_of_single rfl (ix2 d e) _).trans hn
  | ⟨1, _⟩ => exact gram_rhs_col _ _

/-- The Gram matrix: the product of an [8192, 128] block with itself over the row axis, into the zero accumulator,
    read at (d, e), is the sum over the rows of the products of the entries of columns d and e. -/
theorem gram_apply {φ : FTy} (prec : Option ContractPrecision) (y : FVec Ideal S8192x128 φ) (d e : Fin 128) :
    matmul DG prec y y (constant S128x128 .f32 0x00000000#32) (ix2 d e) = ∑ n : Fin 8192, y (ix2 n d) * y (ix2 n e) := by
  refine (Ideal.matmul_constant_zero_apply DG prec y y (ix2 d e)).trans ?_
  rw [← Equiv.sum_comp (contrEquiv1 DG 8192 rfl rfl).symm]
  refine Finset.sum_congr rfl fun n _ => ?_
  rw [gram_lhs, gram_rhs]

/-- On the kept axis the left operand's index of the outer product is the output's first coordinate, -/
theorem outer_lhs_col (j : S128x128.Idx) (q : DO.contr.Idx) : (DO.lhsIdx j q 1).val = (j 0).val := by
  unfold DotDims.lhsIdx
  rw [dif_neg (show ¬(1 : Fin S1x128.rank) ∈ DO.lhsBatch by decide),
    dif_pos (show (1 : Fin S1x128.rank) ∈ DO.lhsNonContracting by decide)]
  rfl

/-- and the right operand's the output's second coordinate. -/
theorem outer_rhs_col (j : S128x128.Idx) (q : DO.contr.Idx) : (DO.rhsIdx j q 1).val = (j 1).val := by
  unfold DotDims.rhsIdx
  rw [dif_neg (show ¬(1 : Fin S1x128.rank) ∈ DO.rhsBatch by decide),
    dif_pos (show (1 : Fin S1x128.rank) ∈ DO.rhsNonContracting by decide)]
  rfl

/-- The left operand's index of the outer product at output (d, e) is (0, d). -/
theorem outer_lhs (d e : Fin 128) (k : Fin 1) :
    DO.lhsIdx (ix2 d e) ((contrEquiv1 DO 1 rfl rfl).symm k) = ix2 k d := by
  have hk := contrEquiv1_symm_val DO 1 rfl rfl k
  funext a
  apply Fin.ext
  match a with
  | ⟨0, _⟩ => exact (DO.lhsIdx_val_of_single rfl (ix2 d e) _).trans hk
  | ⟨1, _⟩ => exact outer_lhs_col _ _

/-- The right operand's index of the outer product at output (d, e) is (0, e). -/
theorem outer_rhs (d e : Fin 128) (k : Fin 1) :
    DO.rhsIdx (ix2 d e) ((contrEquiv1 DO 1 rfl rfl).symm k) = ix2 k e := by
  have hk := contrEquiv1_symm_val DO 1 rfl rfl k
  funext a
  apply Fin.ext
  match a with
  | ⟨0, _⟩ => exact (DO.rhsIdx_val_of_single rfl (ix2 d e) _).trans hk
  | ⟨1, _⟩ => exact outer_rhs_col _ _

/-- The outer product: the product of a [1, 128] row with itself over its unit axis, into the zero accumulator, read
    at (d, e), is the product of the row's entries d and e (a sum of one term). -/
theorem outer_apply {φ : FTy} (prec : Option ContractPrecision) (w : FVec Ideal S1x128 φ) (d e : Fin 128) :
    matmul DO prec w w (constant S128x128 .f32 0x00000000#32) (ix2 d e) = w (ix2 (0 : Fin 1) d) * w (ix2 (0 : Fin 1) e) := by
  refine (Ideal.matmul_constant_zero_apply DO prec w w (ix2 d e)).trans ?_
  rw [← Equiv.sum_comp (contrEquiv1 DO 1 rfl rfl).symm, Fin.sum_univ_one, outer_lhs, outer_rhs]

/-- The block with its unit batch axis dropped, read at row n and column d, is the block at (0, n, d). -/
theorem rows_apply (x0 : FVec Ideal S1x8192x128 .f32) (h : S1x8192x128.ShapeCasts S8192x128) (n : Fin 8192) (d : Fin 128) :
    shapeCast S8192x128 x0 h (ix2 n d) = x0 (ix3 (0 : Fin 1) n d) :=
  shapeCast_1ab_ab_apply x0 h n d

/-- WHAT THE BODY STORES, entry by entry: at (u, d, e) — u the unit batch coordinate — the mean over the rows of the
    products of columns d and e, minus the product of the two column means. -/
theorem pay_apply (x0 : FVec Ideal S1x8192x128 .f32) (u : Fin 1) (d e : Fin 128) :
    k0_pay1 (F := Ideal) x0 (ix3 u d e)
      = Ideal.div (∑ n : Fin 8192, x0 (ix3 (0 : Fin 1) n d) * x0 (ix3 (0 : Fin 1) n e)) (Ideal.ofBits .f32 0x46000000#32)
        - Ideal.div (∑ n : Fin 8192, x0 (ix3 (0 : Fin 1) n d)) (Ideal.ofBits .f32 0x46000000#32)
          * Ideal.div (∑ n : Fin 8192, x0 (ix3 (0 : Fin 1) n e)) (Ideal.ofBits .f32 0x46000000#32) := by
  unfold k0_pay1
  dsimp only
  rw [shapeCast_ab_1ab_apply, subf_apply, divf_apply, broadcast_apply, gram_apply, outer_apply, divf_apply, divf_apply,
    broadcast_apply, broadcast_apply, shapeCast_a_1a_apply, shapeCast_a_1a_apply, colsum_apply, colsum_apply]
  simp only [truncf_apply, rows_apply, Ideal.ofBits_def]

end Cert.KernelIdeal.Body

end
-- ==== Proof.CovLaw.lean ====
/-
  The covariance identity, over an abstract finite sample.

  For a sample of n points with real coordinates u k, v k (two columns of a data block), a real c with
  c = n and c ≠ 0, and the column means μ_u = (∑ u)/c, μ_v = (∑ v)/c:

      (∑ k, (u k − μ_u) · (v k − μ_v)) / c  =  (∑ k, u k · v k) / c  −  μ_u · μ_v.

  The left side is the centred (two-pass) form, the right side the raw-moment (one-pass) form. Expanding the product
  on the left gives ∑ u v − μ_v ∑ u − μ_u ∑ v + n μ_u μ_v, and with ∑ u = c μ_u, ∑ v = c μ_v, n = c the last three
  terms collapse to − c μ_u μ_v. The identity uses distributivity and cancellation, so it is a statement about
  REAL samples: it is first proved in ℝ and then carried to the extended reals, where a division by the real c ≠ 0
  is the product with 1/c and a finite sum of real numbers is the real sum.
-/
import Idealize.ShloMosaic.PureOps.Ideal

noncomputable section

namespace Cert.Cov

open Idealize.ShloMosaic

/-- A finite sum of real numbers, read in the extended reals, is the real sum. -/
theorem coe_sum {ι : Type*} (s : Finset ι) (f : ι → ℝ) :
    ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- The covariance identity in ℝ: centred form = raw-moment form, for a sample of n = c points. -/
theorem cov_real {n : ℕ} (u v : Fin n → ℝ) (c : ℝ) (hc : c ≠ 0) (hn : (n : ℝ) = c) :
    (∑ k, (u k - (∑ j, u j) * (1 / c)) * (v k - (∑ j, v j) * (1 / c))) * (1 / c)
      = (∑ k, u k * v k) * (1 / c) - ((∑ j, u j) * (1 / c)) * ((∑ j, v j) * (1 / c)) := by
  have expand : ∀ k, (u k - (∑ j, u j) * (1 / c)) * (v k - (∑ j, v j) * (1 / c))
      = u k * v k - u k * ((∑ j, v j) * (1 / c)) - ((∑ j, u j) * (1 / c)) * v k
        + ((∑ j, u j) * (1 / c)) * ((∑ j, v j) * (1 / c)) := fun k => by ring
  simp only [expand, Finset.sum_add_distrib, Finset.sum_sub_distrib, ← Finset.sum_mul, ← Finset.mul_sum,
    Finset.sum_const, Finset.card_univ, Fintype.card_fin, nsmul_eq_mul, hn]
  field_simp
  ring

/-- The covariance identity on the extended reals, for a REAL sample: the centred form, with each mean taken as
    (z + ∑ u) / c from the zero initial value z = 0, equals the raw-moment form. -/
theorem cov_ereal {n : ℕ} (u v : Fin n → ℝ) (c : ℝ) (hc : c ≠ 0) (hn : (n : ℝ) = c) :
    Ideal.div (∑ k, ((u k : EReal) - Ideal.div (0 + ∑ j, (u j : EReal)) (c : EReal))
        * ((v k : EReal) - Ideal.div (0 + ∑ j, (v j : EReal)) (c : EReal))) (c : EReal)
      = Ideal.div (∑ k, (u k : EReal) * (v k : EReal)) (c : EReal)
        - Ideal.div (∑ j, (u j : EReal)) (c : EReal) * Ideal.div (∑ j, (v j : EReal)) (c : EReal) := by
  simp only [zero_add, Ideal.div_coe hc, ← coe_sum, ← EReal.coe_mul, ← EReal.coe_sub]
  exact congrArg _ (cov_real u v c hc hn)

end Cert.Cov

end
-- ==== Proof.CovSpec.lean ====
/-
  The per-batch covariance as ONE function of the input array, in its two arrangements.

  The input is x : [32, 8192, 128] (batch b, sample n, feature d); the result is [32, 128, 128] (batch b, features d, e).
  With c = 8192 (the number of samples, as the float 8192.0) and z = 0.0:

    centred  b d e = (∑ n, (x b n d − (z + ∑ n', x b n' d) / c) · (x b n e − (z + ∑ n', x b n' e) / c)) / c
    moments  b d e = (∑ n, x b n d · x b n e) / c − ((∑ n, x b n d) / c) · ((∑ n, x b n e) / c)

  For an input whose every entry is a real number the two agree (the covariance identity, CovLaw), the columns
  u n = x b n d and v n = x b n e being a real sample of 8192 points.
-/
import proofs.«151399_j40492951667323_2_alg».proof.Proof.CovLaw
import Idealize.ShloMosaic.Lib.ValueIdx

noncomputable section

namespace Cert.Cov

open Idealize.ShloMosaic Idealize.ShloMosaic.ValueIdx

/-- The input array's index type and the result's. -/
abbrev SX : Shape := ⟨3, ![32, 8192, 128]⟩
abbrev SY : Shape := ⟨3, ![32, 128, 128]⟩

/-- A function of three coordinates as a function of a rank-3 index. -/
def ofCoords {n0 n1 n2 : ℕ} (f : Fin n0 → Fin n1 → Fin n2 → EReal) : (⟨3, ![n0, n1, n2]⟩ : Shape).Idx → EReal :=
  fun i => f (i 0) (i 1) (i 2)

theorem ofCoords_ix3 {n0 n1 n2 : ℕ} (f : Fin n0 → Fin n1 → Fin n2 → EReal) (a : Fin n0) (b : Fin n1) (c : Fin n2) :
    ofCoords f (ix3 a b c) = f a b c := rfl

/-- Two functions of a rank-3 index that agree at every triple of coordinates are equal. -/
theorem ext_ix3 {n0 n1 n2 : ℕ} {f g : (⟨3, ![n0, n1, n2]⟩ : Shape).Idx → EReal}
    (h : ∀ a b c, f (ix3 a b c) = g (ix3 a b c)) : f = g :=
  funext fun i => by rw [eq_ix3 i]; exact h _ _ _

/-- The float 8192.0 denotes the real number 8192, -/
theorem ofBits_8192 : Ideal.ofBits .f32 0x46000000#32 = ((8192 : ℝ) : EReal) := by
  simp [Ideal.ofBits, Ideal.ieee, -EReal.coe_mul]; norm_num

/-- and the float 0.0 denotes 0. -/
theorem ofBits_zero : Ideal.ofBits .f32 0x00000000#32 = 0 := by
  simp [Ideal.ofBits, Ideal.ieee]

/-- The covariance in its centred (two-pass) arrangement: subtract each feature's mean, then average the products. -/
def centred (x : SX.Idx → EReal) (b : Fin 32) (d e : Fin 128) : EReal :=
  Ideal.div (∑ n : Fin 8192,
      (x (ix3 b n d) - Ideal.div (Ideal.ofBits .f32 0x00000000#32 + ∑ n' : Fin 8192, x (ix3 b n' d)) (Ideal.ofBits .f32 0x46000000#32))
      * (x (ix3 b n e) - Ideal.div (Ideal.ofBits .f32 0x00000000#32 + ∑ n' : Fin 8192, x (ix3 b n' e)) (Ideal.ofBits .f32 0x46000000#32)))
    (Ideal.ofBits .f32 0x46000000#32)

/-- The covariance in its raw-moment (one-pass) arrangement: the mean of the products minus the product of the means. -/
def moments (x : SX.Idx → EReal) (b : Fin 32) (d e : Fin 128) : EReal :=
  Ideal.div (∑ n : Fin 8192, x (ix3 b n d) * x (ix3 b n e)) (Ideal.ofBits .f32 0x46000000#32)
    - Ideal.div (∑ n : Fin 8192, x (ix3 b n d)) (Ideal.ofBits .f32 0x46000000#32)
      * Ideal.div (∑ n : Fin 8192, x (ix3 b n e)) (Ideal.ofBits .f32 0x46000000#32)

/-- On an input of real numbers the two arrangements agree. -/
theorem centred_eq_moments (x : SX.Idx → EReal) (hx : ∀ i, ∃ r : ℝ, x i = (r : EReal)) (b : Fin 32) (d e : Fin 128) :
    centred x b d e = moments x b d e := by
  choose f hf using hx
  unfold centred moments
  simp only [hf, ofBits_8192, ofBits_zero]
  exact cov_ereal (fun n => f (ix3 b n d)) (fun n => f (ix3 b n e)) 8192 (by norm_num) (by norm_num)

end Cert.Cov

end
-- ==== Proof.CovKernel.lean ====
/-
  The kernel's result array as ONE function of the input array: the covariance in its raw-moment arrangement.

  The grid has one point per batch. Point t fetches batch t of the input (a [1, 8192, 128] block), the body stores
  the raw-moment covariance of that block (CovBody), and the [1, 128, 128] result is written back as batch t of the
  output. The 32 written blocks tile the output array, so after the run it holds the raw-moment covariance of the
  whole input, batch by batch.
-/
import proofs.«151399_j40492951667323_2_alg».proof.Proof.Gen.KernelIdeal.Value
import proofs.«151399_j40492951667323_2_alg».proof.Proof.CovBody
import proofs.«151399_j40492951667323_2_alg».proof.Proof.CovSpec
import Idealize.ShloMosaic.Lib.Pipeline.Value

noncomputable section

namespace Cert.KernelIdeal.KValue

open Cert.KernelIdeal Cert.KernelIdeal.Gen Cert.KernelIdeal.Value Cert.KernelIdeal.Body Cert.Cov
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz : (![0, 0, 0] : Fin 3 → Nat) = fun _ => 0 := funext fun a => by fin_cases a <;> rfl

/-- The index maps over the grid: at point t both windows' blocks are batch t, at offset zero on the other axes. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0 :=
  (by decide +kernel : ∀ t : Fin grid0.N, _)

/-- The grid has 32 points. -/
theorem lt_32 (t : Fin cfg0.N) : t.val < 32 :=
  lt_of_lt_of_eq t.isLt (N_0 : cfg0.N = 32)

/-- The input window's block at point t, read at (u, n, d), is the input array at (t, n, d). -/
theorem iblk_apply (c : Dev nD) (t : Fin cfg0.N) (u : Fin 1) (n : Fin 8192) (d : Fin 128) (b : Fin 32) (hb : b.val = t.val) :
    (iblk m c 0 t : FVec Ideal S1x8192x128 .f32) (ix3 u n d)
      = (m ((c : Thread nD τ).loc main_arg0) : S32x8192x128.Idx → EReal) (ix3 b n d) := by
  obtain ⟨e0, e1, e2, -, -, -⟩ := idx_facts t
  unfold iblk
  rw [View.read_apply]
  show V m c main_arg0 _ = m (c.tc.loc main_arg0) _
  unfold V
  refine congrArg _ ?_
  funext a
  apply Fin.ext
  match a with
  | ⟨0, _⟩ => show win0_0.index t 0 * 1 + 1 * u.val = b.val; rw [e0, hb]; omega
  | ⟨1, _⟩ => show win0_0.index t 1 * 8192 + 1 * n.val = n.val; rw [e1]; omega
  | ⟨2, _⟩ => show win0_0.index t 2 * 128 + 1 * d.val = d.val; rw [e2]; omega

/-- One point, over variables: if a [1, 8192, 128] block x0 is batch b of the array X, then what the body stores
    from x0 at the block index y is the raw-moment covariance of X at the array index i = (b, y 1, y 2). -/
theorem block_eq (X : S32x8192x128.Idx → EReal) (x0 : FVec Ideal S1x8192x128 .f32) (b : Fin 32)
    (hx : ∀ (n : Fin 8192) (d : Fin 128), x0 (ix3 (0 : Fin 1) n d) = X (ix3 b n d))
    (y : S1x128x128.Idx) (i : S32x128x128.Idx) (h0 : (i 0).val = b.val) (h1 : (i 1).val = (y 1).val)
    (h2 : (i 2).val = (y 2).val) :
    k0_pay1 (F := Ideal) x0 y = ofCoords (moments X) i := by
  obtain ⟨u, d, e, rfl⟩ : ∃ (u : Fin 1) (d e : Fin 128), y = ix3 u d e := ⟨y 0, y 1, y 2, eq_ix3 y⟩
  have hi : i = ix3 b d e := funext fun a => Fin.ext (by
    match a with
    | ⟨0, _⟩ => exact h0
    | ⟨1, _⟩ => exact h1
    | ⟨2, _⟩ => exact h2)
  rw [hi, pay_apply, ofCoords_ix3]
  unfold moments
  simp only [hx]

/-- WHAT POINT t WRITES BACK is block t of the raw-moment covariance of the input array. -/
theorem flushed_eq (c : Dev nD) (t : Fin cfg0.N) :
    (dats m 0 c).flushed 1 t
      = ((cfg0.win 1).blk t).view.read (Elt Ideal) (ofCoords (moments (m ((c : Thread nD τ).loc main_arg0)))) := by
  rw [Value.flushed1]
  unfold out0_1
  rw [View.canon_unit_zero hz]
  simp only [View.ld_unit_zero (S := S1x8192x128) hz]
  obtain ⟨-, -, -, f0, f1, f2⟩ := idx_facts t
  funext j
  rw [View.read_apply]
  refine block_eq (m ((c : Thread nD τ).loc main_arg0)) (iblk m c 0 t) ⟨t.val, lt_32 t⟩
    (fun n d => iblk_apply m c t 0 n d ⟨t.val, lt_32 t⟩ rfl) _ _ ?_ ?_ ?_
  · show win0_1.index t 0 * 1 + 1 * (j 0).val = t.val
    have hj : (j 0).val < 1 := (j 0).isLt
    rw [f0]; omega
  · show win0_1.index t 1 * 128 + 1 * (j 1).val = (j 1).val
    rw [f1]; omega
  · show win0_1.index t 2 * 128 + 1 * (j 2).val = (j 2).val
    rw [f2]; omega

/-- An index of the output array is in point t's block iff each coordinate is in the block's range on its axis. -/
theorem mem_blk (t : Fin cfg0.N) (i : S32x128x128.Idx) :
    i ∈ ((cfg0.win 1).blk t).view.set ↔ ∀ a : Fin 3, win0_1.index t a * S1x128x128.size a ≤ (i a).val
      ∧ (i a).val < win0_1.index t a * S1x128x128.size a + S1x128x128.size a := by
  show i ∈ ((View.whole main_v0).slice (win0_1.rect t)).set ↔ _
  rw [View.set_slice_whole, Rect.mem_set_unit]
  exact Iff.rfl

/-- The written blocks tile the output: the index (b, d, e) is in the block of point b. -/
theorem cover (i : S32x128x128.Idx) :
    ∃ t : Fin cfg0.N, (cfg0.win 1).flush t = true ∧ i ∈ ((cfg0.win 1).blk t).view.set := by
  have hi0 : (i 0).val < 32 := (i 0).isLt
  have hi1 : (i 1).val < 128 := (i 1).isLt
  have hi2 : (i 2).val < 128 := (i 2).isLt
  have hN : cfg0.N = 32 := N_0
  let t : Fin cfg0.N := ⟨(i 0).val, by rw [hN]; exact hi0⟩
  obtain ⟨-, -, -, f0, f1, f2⟩ := idx_facts t
  refine ⟨t, flush0_1 t, ?_⟩
  rw [mem_blk]
  intro a
  match a with
  | ⟨0, _⟩ =>
    show win0_1.index t 0 * 1 ≤ (i 0).val ∧ (i 0).val < win0_1.index t 0 * 1 + 1
    rw [f0]; show (i 0).val * 1 ≤ (i 0).val ∧ (i 0).val < (i 0).val * 1 + 1; omega
  | ⟨1, _⟩ =>
    show win0_1.index t 1 * 128 ≤ (i 1).val ∧ (i 1).val < win0_1.index t 1 * 128 + 128
    rw [f1]; omega
  | ⟨2, _⟩ =>
    show win0_1.index t 2 * 128 ≤ (i 2).val ∧ (i 2).val < win0_1.index t 2 * 128 + 128
    rw [f2]; omega

/-- THE OUTPUT ARRAY after the run is the raw-moment covariance of the input array. -/
theorem final (c : Dev nD) :
    (dats m 0 c).arrAt 1 cfg0.N = ofCoords (moments (m ((c : Thread nD τ).loc main_arg0))) :=
  (dats m 0 c).arrAt_eq_of_cover 1 _ (fun t _ => flushed_eq m c t) cover

/-- The run, read: every weakly fair execution ends with the result array at the raw-moment covariance of the input
    array, the input unchanged. -/
theorem run : θ_run defs (onTc (τ := τ) (main (F := Ideal))) ⟨m, fun _ => 0, ρ⟩ fun r => ∀ c : Dev nD,
      r.2.mem ((c : Thread nD τ).loc main_v0) = ofCoords (moments (m ((c : Thread nD τ).loc main_arg0)))
      ∧ r.2.mem ((c : Thread nD τ).loc main_arg0) = m ((c : Thread nD τ).loc main_arg0) :=
  (θ_run defs _ _).mono (fun r h c => ⟨(h c).1.trans (final m c), (h c).2⟩) (Value.run_blocks m ρ)

end Cert.KernelIdeal.KValue

end
-- ==== Proof.CovRef.lean ====
/-
  The reference, entry by entry: its result array at (b, d, e) is the covariance in the centred arrangement —
  the per-feature mean (a sum over the samples from the zero initial value, divided by 8192.0) broadcast back over
  the samples and subtracted, the batched product of the centred array with itself over the sample axis, divided by
  8192.0.
-/
import proofs.«151399_j40492951667323_2_alg».proof.Proof.Gen.ReferenceIdeal.Read
import proofs.«151399_j40492951667323_2_alg».proof.Proof.CovSpec

noncomputable section

namespace Cert.ReferenceIdeal.RefValue

open Cert.ReferenceIdeal Cert.ReferenceIdeal.Read Idealize.ShloMosaic Idealize.ShloMosaic.ValueIdx Cert.Cov

/-- The batched product's left operand at result (b, d, e) and sample n is read at (b, n, d), -/
theorem lidx_eq (b : Fin 32) (d e : Fin 128) (n : Fin 8192) : lidx_main_v6 (ix3 b d e) n = ix3 b n d :=
  funext fun a => Fin.ext (by match a with | ⟨0, _⟩ => rfl | ⟨1, _⟩ => rfl | ⟨2, _⟩ => rfl)

/-- and its right operand at (b, n, e). -/
theorem ridx_eq (b : Fin 32) (d e : Fin 128) (n : Fin 8192) : ridx_main_v6 (ix3 b d e) n = ix3 b n e :=
  funext fun a => Fin.ext (by match a with | ⟨0, _⟩ => rfl | ⟨1, _⟩ => rfl | ⟨2, _⟩ => rfl)

/-- The mean subtracted at (b, n, d) sums the entries (b, n', d): the broadcasts forget the sample coordinate n. -/
theorem mean_idx_eq (b : Fin 32) (n : Fin 8192) (d : Fin 128) (n' : Fin 8192) :
    idx_main_v0 (idx_main_v1 (idx_main_v4 (ix3 b n d))) n' = ix3 b n' d :=
  funext fun a => Fin.ext (by match a with | ⟨0, _⟩ => rfl | ⟨1, _⟩ => rfl | ⟨2, _⟩ => rfl)

/-- THE REFERENCE'S RESULT at (b, d, e) is the centred covariance of the input. -/
theorem result_apply (x : (⟨S32x8192x128, .f32⟩ : BufTy).Contents (Elt Ideal)) (b : Fin 32) (d e : Fin 128) :
    val_main_v8 (F := Ideal) x (ix3 b d e) = centred x b d e := by
  rw [val_main_v8_apply, val_main_v7_apply, val_main_cst_1_apply, val_main_v6_apply]
  simp only [lidx_eq, ridx_eq, val_main_v5_apply, val_main_v4_apply, val_main_v3_apply, val_main_v2_apply,
    val_main_cst_0_apply, val_main_v1_apply, val_main_v0_apply, val_main_cst_apply, mean_idx_eq,
    Ideal.hostDivf_def, Ideal.subf_def, Ideal.ofBits_def]
  rfl

/-- The reference's result array is the centred covariance, as one function of the input array. -/
theorem result_eq (x : (⟨S32x8192x128, .f32⟩ : BufTy).Contents (Elt Ideal)) :
    val_main_v8 (F := Ideal) x = ofCoords (centred x) :=
  ext_ix3 fun b d e => result_apply x b d e

end Cert.ReferenceIdeal.RefValue

end
-- ==== Proof.CovFinite.lean ====
/-
  What the precondition says of the input, entry by entry.

  The precondition is the conjunction, over every entry x of the input array, of |x| < +∞ (the absolute value
  max x (−x) compared with the float whose pattern denotes +∞), and it is stated as "the conjunction is 1".
  A conjunction that is 1 has every conjunct 1; and an extended real whose absolute value is below +∞ is neither
  +∞ nor −∞, hence a real number.
-/
import proofs.«151399_j40492951667323_2_alg».proof.Proof.Gen.Pre_finite_inputs
import Idealize.ShloMosaic.Lib.ReduceAll
import Idealize.ShloMosaic.Lib.ValueIdx

noncomputable section

namespace Cert.Pre_finite_inputs.Hand

open Cert.Pre_finite_inputs Idealize.ShloMosaic

/-- The conjunction's result has rank zero: one index. -/
instance : Subsingleton S_.Idx := ⟨fun a b => funext fun d => d.elim0⟩

/-- An extended real whose absolute value is below +∞ is a real number. -/
theorem real_of_abs_lt_top (a : EReal)
    (h : Ideal.cmp .olt (max a (-a)) (Ideal.ofBits .f32 0x7F800000#32) = 1#1) : ∃ r : ℝ, a = (r : EReal) := by
  have htop : Ideal.ofBits .f32 0x7F800000#32 = ⊤ := by simp [Ideal.ofBits, Ideal.ieee]
  rw [htop] at h
  induction a using EReal.rec with
  | bot => simp [Ideal.cmp] at h
  | coe r => exact ⟨r, rfl⟩
  | top => simp [Ideal.cmp] at h

variable [Facts]

/-- Under the precondition every entry of the input array is a real number. -/
theorem real_of_pre (x : FVec Ideal S32x8192x128 .f32) (h : fn (F := Ideal) x = fun _ => 1#1) (i : S32x8192x128.Idx) :
    ∃ r : ℝ, x i = (r : EReal) := by
  have h0 := congrFun h ValueIdx.ix0
  dsimp only [fn] at h0
  have hc := Host.reduce_andi_all _ _ _ _ _ h0 i
  exact real_of_abs_lt_top (x i) hc

end Cert.Pre_finite_inputs.Hand

end
-- ==== Proof.lean ====
/-
  Per-batch covariance of x : [32, 8192, 128] (batch b, sample n, feature d), result [32, 128, 128]:

      cov b d e = (1/N) ∑ n, (x b n d − μ b d) · (x b n e − μ b e),   μ b d = (1/N) ∑ n, x b n d,   N = 8192.

  The reference computes it in this centred (two-pass) arrangement: the mean, broadcast back and subtracted, a
  batched product over the sample axis, a division by 8192.0. The kernel, one grid point per batch, streams the batch
  once and computes the raw-moment (one-pass) arrangement

      (∑ n, x b n d · x b n e) / N − μ b d · μ b e,

  the Gram matrix by a product contracting the sample axis of the block with itself (the operands rounded to a
  shorter float format on the way in: the identity on exact values), the product of the means by a product
  contracting an axis of extent one.

  On exact extended reals the two arrangements differ only by the covariance identity (CovLaw), which distributes
  products over sums and cancels N · μ · μ: laws of the REAL numbers, false at the infinities. The precondition —
  every input entry has absolute value below +∞ — makes every entry a real number (CovFinite), and then the two
  result arrays are one function of the input (CovSpec: centred = moments). The pieces:
    CovBody    what the kernel's body stores from one batch block, entry by entry (column sums, Gram, outer product);
    CovKernel  the 32 written blocks tile the output, so the kernel's result array is the raw-moment covariance;
    CovRef     the reference's result array, read operation by operation, is the centred covariance;
  and the three frames are the generated ones (the reference's: its generated run with the result dropped). The
  idealized kernel is the kernel's own text read on exact values (no rewrite was applied), so there is nothing to
  preserve.
-/
import proofs.«151399_j40492951667323_2_alg».proof.Defs
import proofs.«151399_j40492951667323_2_alg».proof.Proof.Gen.Kernel
import proofs.«151399_j40492951667323_2_alg».proof.Proof.Gen.Kernel.Skeleton
import proofs.«151399_j40492951667323_2_alg».proof.Proof.Gen.Kernel.Launch
import proofs.«151399_j40492951667323_2_alg».proof.Proof.Gen.Kernel.Points
import proofs.«151399_j40492951667323_2_alg».proof.Proof.Gen.Kernel.Frame
import proofs.«151399_j40492951667323_2_alg».proof.Proof.Gen.KernelIdeal
import proofs.«151399_j40492951667323_2_alg».proof.Proof.Gen.KernelIdeal.Skeleton
import proofs.«151399_j40492951667323_2_alg».proof.Proof.Gen.KernelIdeal.Launch
import proofs.«151399_j40492951667323_2_alg».proof.Proof.Gen.KernelIdeal.Points
import proofs.«151399_j40492951667323_2_alg».proof.Proof.Gen.KernelIdeal.Frame
import proofs.«151399_j40492951667323_2_alg».proof.Proof.Gen.ReferenceIdeal
import proofs.«151399_j40492951667323_2_alg».proof.Proof.Gen.Pre_finite_inputs
import proofs.«151399_j40492951667323_2_alg».proof.Proof.Gen.KernelIdeal.Value
import proofs.«151399_j40492951667323_2_alg».proof.Proof.Gen.ReferenceIdeal.Run
import proofs.«151399_j40492951667323_2_alg».proof.Proof.Gen.ReferenceIdeal.Read
import proofs.«151399_j40492951667323_2_alg».proof.Proof.CovKernel
import proofs.«151399_j40492951667323_2_alg».proof.Proof.CovRef
import proofs.«151399_j40492951667323_2_alg».proof.Proof.CovFinite
import Idealize.ShloMosaic.Adequacy
import Idealize.ShloMosaic.Init

noncomputable section

namespace Cert.Proof

open Idealize.ShloMosaic Idealize.SL.Sem Cert.Cov

/-- The word-level kernel runs and leaves its input unchanged: the generated frame. -/
theorem frame_kernel : Cert.frame_Kernel := fun m ρ _ => Cert.Kernel.Gen.frame m ρ

/-- So does the kernel read on exact values. -/
theorem frame_kernelIdeal : Cert.frame_KernelIdeal := fun m ρ _ => Cert.KernelIdeal.Gen.frame m ρ

/-- The reference runs and leaves its input unchanged: its generated run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation of the kernel was rewritten for the reading on exact values. -/
theorem preserves : Cert.preserves_Kernel_KernelIdeal := trivial

/-- From inputs that agree and are finite, both programs end with the same result array: the kernel's is the
    raw-moment covariance of the input, the reference's the centred covariance, and on an input of real numbers the
    two are equal entry by entry. -/
theorem algebraic : Cert.algebraic_KernelIdeal_ReferenceIdeal := by
  intro m ρ m' ρ' hpre hagree
  refine ⟨fun c => ofCoords (moments (m ((c.tc : Thread Cert.KernelIdeal.nD Cert.KernelIdeal.τ).loc Cert.KernelIdeal.main_arg0))),
    Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.ReferenceIdeal.RefValue.result_eq, hagree c]
  refine congrArg ofCoords (funext fun b => funext fun d => funext fun e => ?_)
  exact centred_eq_moments _ (Cert.Pre_finite_inputs.Hand.real_of_pre _ (hpre c)) b d e

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
